-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S1024x1024 .f32) (main_arg2 : FVec F S1024 .f32) (main_arg3 : FVec F S1024 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S1024x1 : Shape := ⟨2, ![1024, 1]⟩
abbrev S1024x256 : Shape := ⟨2, ![1024, 256]⟩
abbrev S1x256 : Shape := ⟨2, ![1, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1024x1024_o0_0_S1024x256 : S1024x1024.Slices ![0, 0] S1024x256
  slices_S1x1024_o0_0_S1x256 : S1x1024.Slices ![0, 0] S1x256
  broadcasts_S1024x1_S1024x256 : S1024x1.Broadcasts S1024x256
  broadcasts_S1x256_S1024x256 : S1x256.Broadcasts S1024x256
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  slices_S1024x1024_o0_256_S1024x256 : S1024x1024.Slices ![0, 256] S1024x256
  slices_S1x1024_o0_256_S1x256 : S1x1024.Slices ![0, 256] S1x256
  inb_S1024x1024_S256x1024_256_0 : ∀ a, (![256, 0] : Fin 2 → Nat) a + S256x1024.size a ≤ S1024x1024.size a
  slices_S1024x1024_o0_512_S1024x256 : S1024x1024.Slices ![0, 512] S1024x256
  slices_S1x1024_o0_512_S1x256 : S1x1024.Slices ![0, 512] S1x256
  inb_S1024x1024_S256x1024_512_0 : ∀ a, (![512, 0] : Fin 2 → Nat) a + S256x1024.size a ≤ S1024x1024.size a
  slices_S1024x1024_o0_768_S1024x256 : S1024x1024.Slices ![0, 768] S1024x256
  slices_S1x1024_o0_768_S1x256 : S1x1024.Slices ![0, 768] S1x256
  inb_S1024x1024_S256x1024_768_0 : ∀ a, (![768, 0] : Fin 2 → Nat) a + S256x1024.size a ≤ S1024x1024.size a
  broadcasts_S1x1024_S1024x1024 : S1x1024.Broadcasts S1024x1024
  shapeCasts_S32768x1024_S8x4096x1024 : S32768x1024.ShapeCasts S8x4096x1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_0_01_1_n_n_wf : DotDims.WF S8x4096x1024 S1024x1024 S8x4096x1024 [2] [0] [0, 1] [1] [] []

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.KernelBody.lean ====
/-
  What the kernel body leaves in the output block, as one term of the five input blocks.

  The body keeps a running total in a scratch block: it stores the zero block, and four times reads the total back,
  adds one product of a 256-column group of the normalised rows with the matching 256 rows of the weight block, and
  stores it again; at the end it reads the total once more, adds the bias row to every row and stores the result in
  the output block. Each read of the scratch block returns what the store just before it wrote, so the output block
  is the nested term below: the payload of the last store applied to the payloads of the stores before it.
-/
import proofs.«155396_j70824010711778_2_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

theorem hz : (![0, 0] : Fin 2 → Nat) = fun _ => 0 := funext fun a => by fin_cases a <;> rfl

/-- The 256 rows of the weight block from row `768`, `512`, `256`, `0` on. -/
abbrev wRows768 (x1 : Vec F S1024x1024 .bf16) : Vec F S256x1024 .bf16 :=
  View.ld x1 (Rect.unit (s := S1024x1024) ![768, 0] S256x1024.size inb_S1024x1024_S256x1024_768_0)
abbrev wRows512 (x1 : Vec F S1024x1024 .bf16) : Vec F S256x1024 .bf16 :=
  View.ld x1 (Rect.unit (s := S1024x1024) ![512, 0] S256x1024.size inb_S1024x1024_S256x1024_512_0)
abbrev wRows256 (x1 : Vec F S1024x1024 .bf16) : Vec F S256x1024 .bf16 :=
  View.ld x1 (Rect.unit (s := S1024x1024) ![256, 0] S256x1024.size inb_S1024x1024_S256x1024_256_0)
abbrev wRows0 (x1 : Vec F S1024x1024 .bf16) : Vec F S256x1024 .bf16 :=
  View.ld x1 (Rect.unit (s := S1024x1024) ![0, 0] S256x1024.size inb_S1024x1024_S256x1024_0_0)

/-- The running total after the first group: zero plus the first product. -/
def total1 (x0 : Vec F S1024x1024 .f32) (x1 : Vec F S1024x1024 .bf16) (x3 x4 : Vec F S1x1024 .f32) : Vec F S1024x1024 .f32 :=
  k0_pay12 (k0_pay10 x0 x3 x4) (k0_pay11 (wRows0 x1)) k0_pay9 (constant S1024x1024 .f32 0x00000000#32)

/-- After the second group. -/
def total2 (x0 : Vec F S1024x1024 .f32) (x1 : Vec F S1024x1024 .bf16) (x3 x4 : Vec F S1x1024 .f32) : Vec F S1024x1024 .f32 :=
  k0_pay13 (k0_pay4 x0) (k0_pay5 x0) (k0_pay6 x0) (k0_pay7 x3) (k0_pay8 x4) (wRows256 x1) (total1 x0 x1 x3 x4)

/-- After the third group. -/
def total3 (x0 : Vec F S1024x1024 .f32) (x1 : Vec F S1024x1024 .bf16) (x3 x4 : Vec F S1x1024 .f32) : Vec F S1024x1024 .f32 :=
  k0_pay1 (k0_pay14 (k0_pay4 x0) (k0_pay5 x0) (k0_pay6 x0) (k0_pay7 x3) (k0_pay8 x4) (wRows512 x1) (total2 x0 x1 x3 x4))

/-- After the fourth group. -/
def total4 (x0 : Vec F S1024x1024 .f32) (x1 : Vec F S1024x1024 .bf16) (x3 x4 : Vec F S1x1024 .f32) : Vec F S1024x1024 .f32 :=
  k0_pay2 (k0_pay4 x0) (k0_pay5 x0) (k0_pay6 x0) (k0_pay7 x3) (k0_pay8 x4) (wRows768 x1) (total3 x0 x1 x3 x4)

/-- The output block: the last total plus the bias row. -/
def bodyVal (x0 : Vec F S1024x1024 .f32) (x1 : Vec F S1024x1024 .bf16) (x2 x3 x4 : Vec F S1x1024 .f32) : Vec F S1024x1024 .f32 :=
  k0_pay3 (total4 x0 x1 x3 x4) x2

/-- The body's one store to the output block writes `bodyVal` of the input blocks: every read of the scratch block
    returns the payload of the store before it, every read of an input block its contents. -/
theorem out_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x0 : Vec F S1024x1024 .f32) (x1 : Vec F S1024x1024 .bf16) (x2 : Vec F S1x1024 .f32) (x3 : Vec F S1x1024 .f32) (x4 : Vec F S1x1024 .f32) :
    out0_A_5 c i arg1 harg1 arg2 harg2 arg3 harg3 arg4 harg4 arg5 harg5 arg6 harg6 arg7 harg7 x0 x1 x2 x3 x4 = bodyVal x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readCov_cons_toLoadRect, View.readAt_eq_ld, harg1.read_unread, harg2.read_unread, harg3.read_unread,
    harg4.read_unread, harg5.read_unread, View.ld_unit_zero (S := S1024x1024) hz, View.ld_unit_zero (S := S1x1024) hz]
  rfl

end Cert.KernelIdeal.Body

end
-- ==== Proof.RowStats.lean ====
/-
  One row of the computation, over the extended reals.

  A row `f` of 1024 entries is normalised: its mean `μ = (∑ f) / 1024`, a variance `v`, the factor
  `(v + ε)^(-1/2)`, then the affine map `(f k - μ) · (v + ε)^(-1/2) · γ k + β k`; the result is the inner product
  of the normalised row with a column `W` of the weight matrix, plus a bias `b`.

  Two spellings of the same number are compared. One takes the variance as the mean of the squared deviations
  `(∑ (f k - μ)²) / 1024` and sums the 1024 products in one sum. The other takes the variance as
  `(∑ f k²) / 1024 - μ²` and adds the products up in four consecutive groups of 256, starting from zero.
  The two variances agree when every entry of the row is a real number (on the extended reals the identity needs
  distributivity, which fails at the infinities); regrouping a finite sum needs only that addition is commutative
  and associative, which holds on all extended reals.
-/
import Idealize.ShloMosaic.PureOps.Ideal
import Idealize.ShloMosaic.PureOps.Ideal.Laws

noncomputable section

open scoped BigOperators

namespace Cert.LnMatmul

open Idealize.ShloMosaic

/-- The inclusion of the reals in the extended reals commutes with finite sums. -/
theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The word `0x44800000` is the real number 1024. -/
theorem ofBits_1024 : Ideal.ofBits .f32 0x44800000#32 = ((1024 : ℝ) : EReal) := by
  simp [Ideal.ofBits, Ideal.ieee, -EReal.coe_mul]; norm_num

/-- The mean of a row: its sum divided by 1024. -/
def mean (f : Fin 1024 → EReal) : EReal := Ideal.div (∑ k, f k) (Ideal.ofBits .f32 0x44800000#32)

/-- The variance as the mean of the squared deviations from the mean. -/
def varCentered (f : Fin 1024 → EReal) : EReal :=
  Ideal.div (∑ k, (f k - mean f) * (f k - mean f)) (Ideal.ofBits .f32 0x44800000#32)

/-- The variance as the mean of the squares minus the square of the mean. -/
def varMoments (f : Fin 1024 → EReal) : EReal :=
  Ideal.div (∑ k, f k * f k) (Ideal.ofBits .f32 0x44800000#32) - mean f * mean f

/-- The normalising factor `(v + ε)^(-1/2)`, `ε` the word `0x3727C5AC`. -/
def rstd (v : EReal) : EReal := Ideal.rsqrt (v + Ideal.ofBits .f32 0x3727C5AC#32)

/-- Entry `k` of the normalised row, for a variance `v`. -/
def normed (v : EReal) (f γ β : Fin 1024 → EReal) (k : Fin 1024) : EReal :=
  (f k - mean f) * rstd v * γ k + β k

/-- The result in one sum, with the variance of the squared deviations. -/
def rowRef (f γ β W : Fin 1024 → EReal) (b : EReal) : EReal :=
  (∑ k, normed (varCentered f) f γ β k * W k) + b

/-- Entry `o + j` of a row, for `j` below 256. -/
def chunkIx (o : ℕ) (h : o + 256 ≤ 1024) (j : Fin 256) : Fin 1024 := ⟨o + j.val, by omega⟩

theorem chunkIx_val (o : ℕ) (h : o + 256 ≤ 1024) (j : Fin 256) : (chunkIx o h j).val = o + j.val := rfl

/-- The inner product of the 256 entries from `o` on. -/
def chunkDot (L W : Fin 1024 → EReal) (o : ℕ) (h : o + 256 ≤ 1024) : EReal :=
  ∑ j : Fin 256, L (chunkIx o h j) * W (chunkIx o h j)

/-- The result in four groups of 256 added to zero in turn, with the variance of the moments. -/
def rowKer (f γ β W : Fin 1024 → EReal) (b : EReal) : EReal :=
  ((((Ideal.ofBits .f32 0x00000000#32
        + chunkDot (normed (varMoments f) f γ β) W 0 (by norm_num))
      + chunkDot (normed (varMoments f) f γ β) W 256 (by norm_num))
    + chunkDot (normed (varMoments f) f γ β) W 512 (by norm_num))
  + chunkDot (normed (varMoments f) f γ β) W 768 (by norm_num)) + b

/-- For a row of real numbers the two variances agree: `(∑ (f k - μ)²)/n = (∑ f k²)/n - μ²` with `n = 1024` the
    number of entries. -/
theorem varMoments_eq_varCentered (f : Fin 1024 → EReal) (hf : ∀ k, ∃ r : ℝ, f k = (r : EReal)) :
    varMoments f = varCentered f := by
  choose g hg using hf
  obtain rfl : f = fun k => ((g k : ℝ) : EReal) := funext hg
  have h1024 : (1024 : ℝ) ≠ 0 := by norm_num
  have hm : mean (fun k => ((g k : ℝ) : EReal)) = (((∑ k, g k) * (1 / 1024) : ℝ) : EReal) := by
    unfold mean
    rw [ofBits_1024, Ideal.div_coe h1024, coe_sum, ← EReal.coe_mul]
  unfold varMoments varCentered
  rw [hm, ofBits_1024, Ideal.div_coe h1024, Ideal.div_coe h1024]
  simp only [← EReal.coe_mul, ← EReal.coe_sub, coe_sum]
  refine congrArg _ ?_
  have key : ∀ μ : ℝ, ∑ k : Fin 1024, (g k - μ) * (g k - μ)
      = (∑ k, g k * g k) - 2 * μ * (∑ k, g k) + 1024 * (μ * μ) := by
    intro μ
    have e : ∀ k, (g k - μ) * (g k - μ) = g k * g k - 2 * μ * g k + μ * μ := fun k => by ring
    simp only [e, Finset.sum_add_distrib, Finset.sum_sub_distrib, ← Finset.mul_sum, Finset.sum_const,
      Finset.card_univ, Fintype.card_fin, nsmul_eq_mul]
    push_cast
    ring
  rw [key]
  ring

/-- A sum over 1024 entries is the sum of its four consecutive groups of 256. -/
theorem sum_chunks {M : Type*} [AddCommMonoid M] (g : Fin 1024 → M) :
    ∑ k, g k = (((∑ j : Fin 256, g (chunkIx 0 (by norm_num) j)) + ∑ j : Fin 256, g (chunkIx 256 (by norm_num) j))
      + ∑ j : Fin 256, g (chunkIx 512 (by norm_num) j)) + ∑ j : Fin 256, g (chunkIx 768 (by norm_num) j) := by
  have h := Fin.sum_univ_add (a := 256 + 256 + 256) (b := 256) (fun k : Fin (256 + 256 + 256 + 256) => g k)
  have h2 := Fin.sum_univ_add (a := 256 + 256) (b := 256)
    (fun k : Fin (256 + 256 + 256) => g (Fin.castAdd 256 k))
  have h3 := Fin.sum_univ_add (a := 256) (b := 256)
    (fun k : Fin (256 + 256) => g (Fin.castAdd 256 (Fin.castAdd 256 k)))
  refine h.trans ?_
  rw [h2, h3]
  refine congrArg₂ (· + ·) (congrArg₂ (· + ·) (congrArg₂ (· + ·) ?_ ?_) ?_) ?_
  · exact Finset.sum_congr rfl fun j _ => congrArg g (Fin.ext (by simp only [chunkIx, Fin.coe_castAdd, Fin.coe_natAdd] <;> omega))
  · exact Finset.sum_congr rfl fun j _ => congrArg g (Fin.ext (by simp only [chunkIx, Fin.coe_castAdd, Fin.coe_natAdd] <;> omega))
  · exact Finset.sum_congr rfl fun j _ => congrArg g (Fin.ext (by simp only [chunkIx, Fin.coe_castAdd, Fin.coe_natAdd] <;> omega))
  · exact Finset.sum_congr rfl fun j _ => congrArg g (Fin.ext (by simp only [chunkIx, Fin.coe_castAdd, Fin.coe_natAdd] <;> omega))

/-- For a row of real numbers the two spellings of the result agree. -/
theorem rowKer_eq_rowRef (f γ β W : Fin 1024 → EReal) (b : EReal) (hf : ∀ k, ∃ r : ℝ, f k = (r : EReal)) :
    rowKer f γ β W b = rowRef f γ β W b := by
  unfold rowKer rowRef chunkDot
  rw [varMoments_eq_varCentered f hf, Ideal.ofBits_zero_f32, zero_add,
    sum_chunks (fun k => normed (varCentered f) f γ β k * W k)]

end Cert.LnMatmul

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KernelRow.lean ====
/-
  The kernel body's output block read at row `r`, column `d`, on the extended reals.

  Row `r` of the block of `x` gives the row's mean (its sum over the 1024 lanes divided by 1024) and the factor
  `(mean of squares - mean² + ε)^(-1/2)`; entry `k` of the normalised row is `(x r k - mean) · factor · γ k + β k`.
  Each of the four matrix products contracts 256 of those entries with the matching 256 rows of the weight block,
  and the four are added to zero in turn; the bias entry of column `d` is added last. That is `rowKer` of the row,
  of the rows `γ`, `β`, of column `d` of the weight block and of the bias entry.
-/
import proofs.«155396_j70824010711778_2_alg».proof.Proof.KernelBody
import proofs.«155396_j70824010711778_2_alg».proof.Proof.RowStats
import proofs.«155396_j70824010711778_2_alg».proof.Proof.LibLayout
import Idealize.ShloMosaic.Lib.ValueIdx
import Idealize.ShloMosaic.Lib.ValueLayout
import Idealize.ShloMosaic.PureOps.Ideal.Laws

set_option maxRecDepth 16384

noncomputable section

namespace Cert.KernelIdeal.Row

open Idealize.ShloMosaic Idealize.ShloMosaic.ValueIdx
open Cert.KernelIdeal Cert.KernelIdeal.Gen Cert.KernelIdeal.Body Cert.LnMatmul Cert.LibLayout

/-- The matrix product's dimension numbers: rows by lanes times lanes by columns. -/
abbrev D : DotDims S1024x256 S256x1024 S1024x1024 := dot_S1024x256_S256x1024_S1024x1024_1_0_0_1_n_n

/-! ## The product of a 1024×256 block with a 256×1024 block at an entry -/

theorem D_lhs0 (i : S1024x1024.Idx) (q : D.contr.Idx) : (D.lhsIdx i q 0).val = (i 0).val := by
  unfold DotDims.lhsIdx
  rw [dif_neg (show ¬(0 : Fin S1024x256.rank) ∈ D.lhsBatch by decide), dif_pos (show (0 : Fin S1024x256.rank) ∈ D.lhsNonContracting by decide)]
  rfl
theorem D_lhs1 (i : S1024x1024.Idx) (q : D.contr.Idx) : (D.lhsIdx i q 1).val = (q ⟨0, by decide⟩).val :=
  D.lhsIdx_val_of_single rfl i q
theorem D_rhs0 (i : S1024x1024.Idx) (q : D.contr.Idx) : (D.rhsIdx i q 0).val = (q ⟨0, by decide⟩).val :=
  D.rhsIdx_val_of_single rfl i q
theorem D_rhs1 (i : S1024x1024.Idx) (q : D.contr.Idx) : (D.rhsIdx i q 1).val = (i 1).val := by
  unfold DotDims.rhsIdx
  rw [dif_neg (show ¬(1 : Fin S256x1024.rank) ∈ D.rhsBatch by decide), dif_pos (show (1 : Fin S256x1024.rank) ∈ D.rhsNonContracting by decide)]
  rfl

/-- Into a zero accumulator the product at `(r, d)` is `∑ j, lhs r j · rhs j d`. -/
theorem dot_apply (lhs : FVec Ideal S1024x256 .bf16) (rhs : FVec Ideal S256x1024 .bf16) (r d : Fin 1024) :
    matmul D none lhs rhs (constant (F := Ideal) S1024x1024 .f32 0x00000000#32) (ix2 r d) = ∑ j : Fin 256, lhs (ix2 r j) * rhs (ix2 j d) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 r d) ((contrEquiv1 D 256 rfl rfl).symm k) = ix2 r k := funext fun a => Fin.ext (by
    match a with
    | ⟨0, _⟩ => exact D_lhs0 _ _
    | ⟨1, _⟩ => exact (D_lhs1 _ _).trans hk)
  have er : D.rhsIdx (ix2 r d) ((contrEquiv1 D 256 rfl rfl).symm k) = ix2 k d := funext fun a => Fin.ext (by
    match a with
    | ⟨0, _⟩ => exact (D_rhs0 _ _).trans hk
    | ⟨1, _⟩ => exact D_rhs1 _ _)
  rw [el, er]

/-! ## A row's sum, mean and normalising factor -/

/-- The lane sum of a block, viewed as a column, reads at row `r` the sum of the block's row `r`. -/
theorem rowSum_apply (y : FVec Ideal S1024x1024 .f32) (r : Fin 1024) (u : Fin 1) :
    shapeCast S1024x1 (multiReduction .add [1] S1024 y 0x00000000#32 reduces_S1024x1024_S1024 (.inl rfl) rfl)
      shapeCasts_S1024_S1024x1 (ix2 r u) = ∑ k : Fin 1024, y (ix2 r k) := by
  refine (shapeCast_a_a1_apply _ shapeCasts_S1024_S1024x1 r u).trans ?_
  refine (Ideal.multiReduction_add_single y 0x00000000#32 reduces_S1024x1024_S1024 (.inl rfl) rfl (ix1 r)).trans ?_
  exact Finset.sum_congr rfl fun k _ => congrArg y (funext fun a => Fin.ext (by
    match a with
    | ⟨0, _⟩ => rfl
    | ⟨1, _⟩ => rfl))

theorem pay4_eq (x0 : Vec Ideal S1024x1024 .f32) : k0_pay4 x0 = x0 := shapeCast_self x0 _
theorem pay7_eq (x3 : Vec Ideal S1x1024 .f32) : k0_pay7 x3 = x3 := shapeCast_self x3 _
theorem pay8_eq (x4 : Vec Ideal S1x1024 .f32) : k0_pay8 x4 = x4 := shapeCast_self x4 _
theorem pay11_eq (w : Vec Ideal S256x1024 .bf16) : k0_pay11 w = w := shapeCast_self w _
theorem pay1_eq (v : FVec Ideal S1024x1024 .f32) : k0_pay1 v = v := shapeCast_self v _
theorem pay9_apply (i : S1024x1024.Idx) : k0_pay9 (F := Ideal) i = Ideal.ofBits .f32 0x00000000#32 := by
  unfold k0_pay9
  simp only [shapeCast_self]
  rfl

/-- Row `r` of the block of `x`, the rows `γ` and `β`, column `d` of the weight block. -/
abbrev rowOf (x0 : Vec Ideal S1024x1024 .f32) (r : Fin 1024) : Fin 1024 → EReal := fun k => x0 (ix2 r k)
abbrev laneOf (x : Vec Ideal S1x1024 .f32) : Fin 1024 → EReal := fun k => x (ix2 (0 : Fin 1) k)
abbrev colOf (x1 : Vec Ideal S1024x1024 .bf16) (d : Fin 1024) : Fin 1024 → EReal := fun k => x1 (ix2 k d)

/-- The column of means at row `r` is the mean of the block's row `r`. -/
theorem mean_apply (x0 : Vec Ideal S1024x1024 .f32) (r : Fin 1024) (u : Fin 1) :
    k0_pay5 x0 (ix2 r u) = mean (rowOf x0 r) := by
  show Ideal.div (shapeCast S1024x1 (multiReduction .add [1] S1024 (k0_pay4 x0) 0x00000000#32 reduces_S1024x1024_S1024 (.inl rfl) rfl)
      shapeCasts_S1024_S1024x1 (ix2 r u)) (Ideal.ofBits .f32 0x44800000#32) = _
  rw [rowSum_apply, pay4_eq]
  rfl

/-- The column of normalising factors at row `r`: the factor of the row's mean of squares minus the square of its mean. -/
theorem rstd_apply (x0 : Vec Ideal S1024x1024 .f32) (r : Fin 1024) (u : Fin 1) :
    k0_pay6 x0 (ix2 r u) = rstd (varMoments (rowOf x0 r)) := by
  show Ideal.rsqrt ((Ideal.div (shapeCast S1024x1 (multiReduction .add [1] S1024 (mulf (k0_pay4 x0) (k0_pay4 x0)) 0x00000000#32
      reduces_S1024x1024_S1024 (.inl rfl) rfl) shapeCasts_S1024_S1024x1 (ix2 r u)) (Ideal.ofBits .f32 0x44800000#32)
      - k0_pay5 x0 (ix2 r u) * k0_pay5 x0 (ix2 r u)) + Ideal.ofBits .f32 0x3727C5AC#32) = _
  rw [rowSum_apply, mean_apply, pay4_eq]
  rfl

/-! ## One group of 256 normalised entries, and one accumulation step -/

/-- Entry `(r, j)` of the normalised group that starts at lane `o`. -/
theorem lnChunk_apply (o : ℕ) (ho : o + 256 ≤ 1024) (hs1 : S1024x1024.Slices ![0, o] S1024x256)
    (hs2 : S1x1024.Slices ![0, o] S1x256) (v1 : FVec Ideal S1024x1024 .f32) (v5 v15 : FVec Ideal S1024x1 .f32)
    (v17 v19 : FVec Ideal S1x1024 .f32) (r : Fin 1024) (j : Fin 256) :
    (truncf .bf16 (addf (mulf (mulf (subf (extractStridedSlice S1024x256 ![0, o] v1 hs1) (broadcastTo S1024x256 v5 broadcasts_S1024x1_S1024x256)) (broadcastTo S1024x256 v15 broadcasts_S1024x1_S1024x256)) (broadcastTo S1024x256 (extractStridedSlice S1x256 ![0, o] v17 hs2) broadcasts_S1x256_S1024x256)) (broadcastTo S1024x256 (extractStridedSlice S1x256 ![0, o] v19 hs2) broadcasts_S1x256_S1024x256)) bitsLt_bf16_f32) (ix2 r j)
      = (v1 (ix2 r (chunkIx o ho j)) - v5 (ix2 r (0 : Fin 1))) * v15 (ix2 r (0 : Fin 1)) * v17 (ix2 (0 : Fin 1) (chunkIx o ho j))
        + v19 (ix2 (0 : Fin 1) (chunkIx o ho j)) := by
  show (extractStridedSlice S1024x256 ![0, o] v1 hs1 (ix2 r j) - broadcastTo S1024x256 v5 broadcasts_S1024x1_S1024x256 (ix2 r j))
      * broadcastTo S1024x256 v15 broadcasts_S1024x1_S1024x256 (ix2 r j)
      * broadcastTo S1024x256 (extractStridedSlice S1x256 ![0, o] v17 hs2) broadcasts_S1x256_S1024x256 (ix2 r j)
      + broadcastTo S1024x256 (extractStridedSlice S1x256 ![0, o] v19 hs2) broadcasts_S1x256_S1024x256 (ix2 r j) = _
  rw [slice2_axis1_apply o v1 hs1 r j (chunkIx o ho j) rfl, broadcastTo_a1_ab_apply v5 _ r j,
    broadcastTo_a1_ab_apply v15 _ r j, broadcastTo_1b_ab_apply _ _ r j, broadcastTo_1b_ab_apply _ _ r j,
    slice2_axis1_apply o v17 hs2 (0 : Fin 1) j (chunkIx o ho j) rfl,
    slice2_axis1_apply o v19 hs2 (0 : Fin 1) j (chunkIx o ho j) rfl]

/-- Entry `k` of the normalised row `r`, from the body's own mean and factor columns. -/
theorem entry_eq (x0 : Vec Ideal S1024x1024 .f32) (x3 x4 : Vec Ideal S1x1024 .f32) (r : Fin 1024) (k : Fin 1024) :
    (k0_pay4 x0 (ix2 r k) - k0_pay5 x0 (ix2 r (0 : Fin 1))) * k0_pay6 x0 (ix2 r (0 : Fin 1)) * k0_pay7 x3 (ix2 (0 : Fin 1) k)
        + k0_pay8 x4 (ix2 (0 : Fin 1) k)
      = normed (varMoments (rowOf x0 r)) (rowOf x0 r) (laneOf x3) (laneOf x4) k := by
  rw [pay4_eq, pay7_eq, pay8_eq, mean_apply, rstd_apply]
  rfl

/-- The 256 rows of the weight block from row `o` on, at `(j, d)`: the block at `(o + j, d)`. -/
theorem wRows_apply (x1 : Vec Ideal S1024x1024 .bf16) (o : ℕ) (ho : o + 256 ≤ 1024)
    (inb : ∀ a, (![o, 0] : Fin 2 → Nat) a + S256x1024.size a ≤ S1024x1024.size a) (j : Fin 256) (d : Fin 1024) :
    View.ld x1 (Rect.unit (s := S1024x1024) ![o, 0] S256x1024.size inb) (ix2 j d) = x1 (ix2 (chunkIx o ho j) d) := by
  show x1 ((Rect.unit (s := S1024x1024) ![o, 0] S256x1024.size inb).emb (ix2 j d)) = _
  refine congrArg x1 (funext fun a => Fin.ext ?_)
  match a with
  | ⟨0, _⟩ => show o + 1 * j.val = o + j.val; omega
  | ⟨1, _⟩ => show 0 + 1 * d.val = d.val; omega

/-- One accumulation step at `(r, d)`: the total so far plus the inner product of the group's 256 normalised entries
    of row `r` with 256 entries `W (o + j)` of a column, read from a block `w` of 256 weight rows at `(j, d)`. -/
theorem step_apply (o : ℕ) (ho : o + 256 ≤ 1024) (hs1 : S1024x1024.Slices ![0, o] S1024x256)
    (hs2 : S1x1024.Slices ![0, o] S1x256) (x0 : Vec Ideal S1024x1024 .f32) (x3 x4 : Vec Ideal S1x1024 .f32)
    (w : FVec Ideal S256x1024 .bf16) (W : Fin 1024 → EReal)
    (acc : FVec Ideal S1024x1024 .f32) (r d : Fin 1024) (hw : ∀ j : Fin 256, w (ix2 j d) = W (chunkIx o ho j)) :
    addf acc (matmul dot_S1024x256_S256x1024_S1024x1024_1_0_0_1_n_n none (truncf .bf16 (addf (mulf (mulf (subf (extractStridedSlice S1024x256 ![0, o] (k0_pay4 x0) hs1) (broadcastTo S1024x256 (k0_pay5 x0) broadcasts_S1024x1_S1024x256)) (broadcastTo S1024x256 (k0_pay6 x0) broadcasts_S1024x1_S1024x256)) (broadcastTo S1024x256 (extractStridedSlice S1x256 ![0, o] (k0_pay7 x3) hs2) broadcasts_S1x256_S1024x256)) (broadcastTo S1024x256 (extractStridedSlice S1x256 ![0, o] (k0_pay8 x4) hs2) broadcasts_S1x256_S1024x256)) bitsLt_bf16_f32)
        w (constant (F := Ideal) S1024x1024 .f32 0x00000000#32)) (ix2 r d)
      = acc (ix2 r d) + chunkDot (normed (varMoments (rowOf x0 r)) (rowOf x0 r) (laneOf x3) (laneOf x4)) W o ho := by
  show acc (ix2 r d) + matmul D none _ w (constant (F := Ideal) S1024x1024 .f32 0x00000000#32) (ix2 r d) = _
  rw [dot_apply]
  refine congrArg (acc (ix2 r d) + ·) (Finset.sum_congr rfl fun j _ => ?_)
  rw [lnChunk_apply o ho hs1 hs2, entry_eq, hw]

/-! ## The four totals and the output block -/

theorem pay13_eq (v1 : FVec Ideal S1024x1024 .f32) (v5 v15 : FVec Ideal S1024x1 .f32) (v17 v19 : FVec Ideal S1x1024 .f32)
    (w : FVec Ideal S256x1024 .bf16) (acc : FVec Ideal S1024x1024 .f32) :
    k0_pay13 v1 v5 v15 v17 v19 w acc
      = addf acc (matmul dot_S1024x256_S256x1024_S1024x1024_1_0_0_1_n_n none (truncf .bf16 (addf (mulf (mulf (subf (extractStridedSlice S1024x256 ![0, 256] v1 slices_S1024x1024_o0_256_S1024x256) (broadcastTo S1024x256 v5 broadcasts_S1024x1_S1024x256)) (broadcastTo S1024x256 v15 broadcasts_S1024x1_S1024x256)) (broadcastTo S1024x256 (extractStridedSlice S1x256 ![0, 256] v17 slices_S1x1024_o0_256_S1x256) broadcasts_S1x256_S1024x256)) (broadcastTo S1024x256 (extractStridedSlice S1x256 ![0, 256] v19 slices_S1x1024_o0_256_S1x256) broadcasts_S1x256_S1024x256)) bitsLt_bf16_f32) w (constant (F := Ideal) S1024x1024 .f32 0x00000000#32)) := by
  unfold k0_pay13
  simp only [shapeCast_self]

theorem pay14_eq (v1 : FVec Ideal S1024x1024 .f32) (v5 v15 : FVec Ideal S1024x1 .f32) (v17 v19 : FVec Ideal S1x1024 .f32)
    (w : FVec Ideal S256x1024 .bf16) (acc : FVec Ideal S1024x1024 .f32) :
    k0_pay14 v1 v5 v15 v17 v19 w acc
      = addf acc (matmul dot_S1024x256_S256x1024_S1024x1024_1_0_0_1_n_n none (truncf .bf16 (addf (mulf (mulf (subf (extractStridedSlice S1024x256 ![0, 512] v1 slices_S1024x1024_o0_512_S1024x256) (broadcastTo S1024x256 v5 broadcasts_S1024x1_S1024x256)) (broadcastTo S1024x256 v15 broadcasts_S1024x1_S1024x256)) (broadcastTo S1024x256 (extractStridedSlice S1x256 ![0, 512] v17 slices_S1x1024_o0_512_S1x256) broadcasts_S1x256_S1024x256)) (broadcastTo S1024x256 (extractStridedSlice S1x256 ![0, 512] v19 slices_S1x1024_o0_512_S1x256) broadcasts_S1x256_S1024x256)) bitsLt_bf16_f32) w (constant (F := Ideal) S1024x1024 .f32 0x00000000#32)) := by
  unfold k0_pay14
  simp only [shapeCast_self]

theorem pay2_eq (v1 : FVec Ideal S1024x1024 .f32) (v5 v15 : FVec Ideal S1024x1 .f32) (v17 v19 : FVec Ideal S1x1024 .f32)
    (w : FVec Ideal S256x1024 .bf16) (acc : FVec Ideal S1024x1024 .f32) :
    k0_pay2 v1 v5 v15 v17 v19 w acc
      = addf acc (matmul dot_S1024x256_S256x1024_S1024x1024_1_0_0_1_n_n none (truncf .bf16 (addf (mulf (mulf (subf (extractStridedSlice S1024x256 ![0, 768] v1 slices_S1024x1024_o0_768_S1024x256) (broadcastTo S1024x256 v5 broadcasts_S1024x1_S1024x256)) (broadcastTo S1024x256 v15 broadcasts_S1024x1_S1024x256)) (broadcastTo S1024x256 (extractStridedSlice S1x256 ![0, 768] v17 slices_S1x1024_o0_768_S1x256) broadcasts_S1x256_S1024x256)) (broadcastTo S1024x256 (extractStridedSlice S1x256 ![0, 768] v19 slices_S1x1024_o0_768_S1x256) broadcasts_S1x256_S1024x256)) bitsLt_bf16_f32) w (constant (F := Ideal) S1024x1024 .f32 0x00000000#32)) := by
  unfold k0_pay2
  simp only [shapeCast_self]

theorem pay12_eq (v35 : FVec Ideal S1024x256 .bf16) (v37 : FVec Ideal S256x1024 .bf16) (v38 : FVec Ideal S1024x1024 .f32) :
    k0_pay12 v35 v37 v38 (constant (F := Ideal) S1024x1024 .f32 0x00000000#32) = addf v38 (matmul dot_S1024x256_S256x1024_S1024x1024_1_0_0_1_n_n none v35 v37 (constant (F := Ideal) S1024x1024 .f32 0x00000000#32)) := by
  unfold k0_pay12
  simp only [shapeCast_self]

variable (x0 : Vec Ideal S1024x1024 .f32) (x1 : Vec Ideal S1024x1024 .bf16) (x2 x3 x4 : Vec Ideal S1x1024 .f32) (r d : Fin 1024)

local notation "L" => normed (varMoments (rowOf x0 r)) (rowOf x0 r) (laneOf x3) (laneOf x4)

theorem total1_apply : total1 x0 x1 x3 x4 (ix2 r d)
    = Ideal.ofBits .f32 0x00000000#32 + chunkDot L (colOf x1 d) 0 (by norm_num) := by
  unfold total1
  rw [pay12_eq, pay11_eq]
  refine (step_apply 0 (by norm_num) slices_S1024x1024_o0_0_S1024x256 slices_S1x1024_o0_0_S1x256 x0 x3 x4
    (wRows0 x1) (colOf x1 d) k0_pay9 r d
    (fun j => wRows_apply x1 0 (by norm_num) inb_S1024x1024_S256x1024_0_0 j d)).trans ?_
  rw [pay9_apply]

theorem total2_apply : total2 x0 x1 x3 x4 (ix2 r d)
    = (Ideal.ofBits .f32 0x00000000#32 + chunkDot L (colOf x1 d) 0 (by norm_num)) + chunkDot L (colOf x1 d) 256 (by norm_num) := by
  unfold total2
  rw [pay13_eq]
  refine (step_apply 256 (by norm_num) slices_S1024x1024_o0_256_S1024x256 slices_S1x1024_o0_256_S1x256 x0 x3 x4
    (wRows256 x1) (colOf x1 d) (total1 x0 x1 x3 x4) r d
    (fun j => wRows_apply x1 256 (by norm_num) inb_S1024x1024_S256x1024_256_0 j d)).trans ?_
  rw [total1_apply]

theorem total3_apply : total3 x0 x1 x3 x4 (ix2 r d)
    = ((Ideal.ofBits .f32 0x00000000#32 + chunkDot L (colOf x1 d) 0 (by norm_num)) + chunkDot L (colOf x1 d) 256 (by norm_num))
      + chunkDot L (colOf x1 d) 512 (by norm_num) := by
  unfold total3
  rw [pay1_eq, pay14_eq]
  refine (step_apply 512 (by norm_num) slices_S1024x1024_o0_512_S1024x256 slices_S1x1024_o0_512_S1x256 x0 x3 x4
    (wRows512 x1) (colOf x1 d) (total2 x0 x1 x3 x4) r d
    (fun j => wRows_apply x1 512 (by norm_num) inb_S1024x1024_S256x1024_512_0 j d)).trans ?_
  rw [total2_apply]

theorem total4_apply : total4 x0 x1 x3 x4 (ix2 r d)
    = (((Ideal.ofBits .f32 0x00000000#32 + chunkDot L (colOf x1 d) 0 (by norm_num)) + chunkDot L (colOf x1 d) 256 (by norm_num))
      + chunkDot L (colOf x1 d) 512 (by norm_num)) + chunkDot L (colOf x1 d) 768 (by norm_num) := by
  unfold total4
  rw [pay2_eq]
  refine (step_apply 768 (by norm_num) slices_S1024x1024_o0_768_S1024x256 slices_S1x1024_o0_768_S1x256 x0 x3 x4
    (wRows768 x1) (colOf x1 d) (total3 x0 x1 x3 x4) r d
    (fun j => wRows_apply x1 768 (by norm_num) inb_S1024x1024_S256x1024_768_0 j d)).trans ?_
  rw [total3_apply]

/-- The output block at `(r, d)` is `rowKer` of row `r` of `x`, of `γ`, `β`, of column `d` of the weight block and of
    the bias entry `d`. -/
theorem bodyVal_apply : bodyVal x0 x1 x2 x3 x4 (ix2 r d)
    = rowKer (rowOf x0 r) (laneOf x3) (laneOf x4) (colOf x1 d) (x2 (ix2 (0 : Fin 1) d)) := by
  show total4 x0 x1 x3 x4 (ix2 r d)
      + broadcastTo S1024x1024 (shapeCast S1x1024 x2 shapeCasts_S1x1024_S1x1024) broadcasts_S1x1024_S1024x1024 (ix2 r d) = _
  rw [total4_apply, broadcastTo_1b_ab_apply _ _ r d, shapeCast_self]
  rfl

end Cert.KernelIdeal.Row

end
-- ==== Proof.KernelArray.lean ====
/-
  From blocks to the whole result.

  The grid has 32 points; point `t` reads rows `1024·t … 1024·t + 1023` of the flattened `x` (32768 rows of 1024
  lanes), the whole weight matrix and the three parameter rows, and writes rows `1024·t …` of the flattened result.
  By the body's reading every entry `(R, d)` of what point `t` writes is `rowKer` of row `R` of `x`, the rows `γ`, `β`,
  column `d` of the weights and the bias entry `d`: one function `G` of the arrays the region finds. The 32 blocks
  cover every row (row `R` lies in block `R / 1024`), so the flattened result is `G`. The host lines around the
  region only regroup axes — `[8, 4096, 1024]` to `[32768, 1024]` with row `4096·p + q`, and back; `[1024]` to
  `[1, 1024]` — and change the weights' format, which is the identity on the extended reals.
-/
import proofs.«155396_j70824010711778_2_alg».proof.Proof.KernelRow
import Idealize.ShloMosaic.Lib.StableHlo.Run
import Idealize.ShloMosaic.Lib.Pipeline.Value

set_option maxRecDepth 16384

noncomputable section

namespace Cert.KernelIdeal.Arr

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen Cert.KernelIdeal.Body Cert.KernelIdeal.Row Cert.LnMatmul Cert.LibLayout

variable (m : (ℓ : Loc nD τ sig) → Buf (Elt Ideal) ℓ) (ρ : Dev nD → PrngReg)

/-! ## What the region finds in its arrays -/

theorem V_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl

/-- The weights the region finds are the argument's: the change of format is the identity on the extended reals. -/
theorem V_v1 (c : Dev nD) : @Eq (S1024x1024.Idx → EReal) (V m c main_v1) (m ((c : Thread nD τ).loc main_arg1)) := by
  show StableHlo.after hostOps0 (fun b => m (c, b)) (Proc.devRef .tc main_v1) = _
  after_results
  rfl

theorem V_v2 (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results
  rfl

theorem V_v3 (c : Dev nD) : (V m c main_v3 : S1x1024.Idx → EReal)
    = shapeCast S1x1024 (m ((c : Thread nD τ).loc main_arg3)) shapeCasts_S1024_S1x1024 := by
  show StableHlo.after hostOps0 (fun b => m (c, b)) (Proc.devRef .tc main_v3) = _
  after_results
  rfl

theorem V_v4 (c : Dev nD) : (V m c main_v4 : S1x1024.Idx → EReal)
    = shapeCast S1x1024 (m ((c : Thread nD τ).loc main_arg4)) shapeCasts_S1024_S1x1024 := by
  show StableHlo.after hostOps0 (fun b => m (c, b)) (Proc.devRef .tc main_v4) = _
  after_results
  rfl

/-! ## The flattened result as one function of the region's arrays -/

/-- Entry `(R, d)` of the flattened result: `rowKer` of row `R` of the flattened `x`, the rows `γ` and `β`, column `d`
    of the weights and entry `d` of the bias row. -/
def G (X : S32768x1024.Idx → EReal) (Wb : S1024x1024.Idx → EReal) (B Γ Β : S1x1024.Idx → EReal) :
    S32768x1024.Idx → EReal := fun i =>
  rowKer (fun k => X (ix2 (⟨(i 0).val, idx2_lt0 i⟩ : Fin 32768) k)) (fun k => Γ (ix2 (0 : Fin 1) k))
    (fun k => Β (ix2 (0 : Fin 1) k)) (fun k => Wb (ix2 k (⟨(i 1).val, idx2_lt1 i⟩ : Fin 1024)))
    (B (ix2 (0 : Fin 1) (⟨(i 1).val, idx2_lt1 i⟩ : Fin 1024)))

theorem G_apply (X : S32768x1024.Idx → EReal) (Wb : S1024x1024.Idx → EReal) (B Γ Β : S1x1024.Idx → EReal)
    (R : Fin 32768) (d : Fin 1024) :
    G X Wb B Γ Β (ix2 R d) = rowKer (fun k => X (ix2 R k)) (fun k => Γ (ix2 (0 : Fin 1) k))
      (fun k => Β (ix2 (0 : Fin 1) k)) (fun k => Wb (ix2 k d)) (B (ix2 (0 : Fin 1) d)) := rfl

/-- The block index of each window at each grid point: the row blocks of `x` and of the result move with the point,
    the weights and the three rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks read where they lie in their arrays -/

theorem emb0 (t : Fin cfg0.N) (p k : Fin 1024) (R : Fin 32768) (hR : R.val = t.val * 1024 + p.val) :
    ((cfg0.win 0).blk t).view.emb (ix2 p k : S1024x1024.Idx) = (ix2 R k : S32768x1024.Idx) := by
  obtain ⟨e0, e1, -⟩ := idx_facts t
  funext a; apply Fin.ext
  match a with
  | ⟨0, _⟩ => show win0_0.index t (0 : Fin 2) * 1024 + 1 * p.val = R.val; omega
  | ⟨1, _⟩ => show win0_0.index t (1 : Fin 2) * 1024 + 1 * k.val = k.val; omega

theorem blk0_read (c : Dev nD) (t : Fin cfg0.N) (p k : Fin 1024) (R : Fin 32768) (hR : R.val = t.val * 1024 + p.val) :
    iblk m c 0 t (ix2 p k : S1024x1024.Idx) = V m c main_v0 (ix2 R k) := by
  show V m c main_v0 (((cfg0.win 0).blk t).view.emb (ix2 p k : S1024x1024.Idx)) = _
  rw [emb0 t p k R hR]

theorem emb1 (t : Fin cfg0.N) (k q : Fin 1024) :
    ((cfg0.win 1).blk t).view.emb (ix2 k q : S1024x1024.Idx) = (ix2 k q : S1024x1024.Idx) := by
  obtain ⟨-, -, e2, e3, -⟩ := idx_facts t
  funext a; apply Fin.ext
  match a with
  | ⟨0, _⟩ => show win0_1.index t (0 : Fin 2) * 1024 + 1 * k.val = k.val; omega
  | ⟨1, _⟩ => show win0_1.index t (1 : Fin 2) * 1024 + 1 * q.val = q.val; omega

theorem blk1_read (c : Dev nD) (t : Fin cfg0.N) (k q : Fin 1024) :
    iblk m c 1 t (ix2 k q : S1024x1024.Idx) = V m c main_v1 (ix2 k q) := by
  show V m c main_v1 (((cfg0.win 1).blk t).view.emb (ix2 k q : S1024x1024.Idx)) = _
  rw [emb1 t k q]

theorem emb2 (t : Fin cfg0.N) (k : Fin 1024) :
    ((cfg0.win 2).blk t).view.emb (ix2 (0 : Fin 1) k : S1x1024.Idx) = (ix2 (0 : Fin 1) k : S1x1024.Idx) := by
  obtain ⟨-, -, -, -, e4, e5, e6, e7, e8, e9, -⟩ := idx_facts t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem blk2_read (c : Dev nD) (t : Fin cfg0.N) (k : Fin 1024) :
    iblk m c 2 t (ix2 (0 : Fin 1) k : S1x1024.Idx) = V m c main_v2 (ix2 (0 : Fin 1) k) := by
  show V m c main_v2 (((cfg0.win 2).blk t).view.emb (ix2 (0 : Fin 1) k : S1x1024.Idx)) = _
  rw [emb2 t k]

theorem emb3 (t : Fin cfg0.N) (k : Fin 1024) :
    ((cfg0.win 3).blk t).view.emb (ix2 (0 : Fin 1) k : S1x1024.Idx) = (ix2 (0 : Fin 1) k : S1x1024.Idx) := by
  obtain ⟨-, -, -, -, e4, e5, e6, e7, e8, e9, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem blk3_read (c : Dev nD) (t : Fin cfg0.N) (k : Fin 1024) :
    iblk m c 3 t (ix2 (0 : Fin 1) k : S1x1024.Idx) = V m c main_v3 (ix2 (0 : Fin 1) k) := by
  show V m c main_v3 (((cfg0.win 3).blk t).view.emb (ix2 (0 : Fin 1) k : S1x1024.Idx)) = _
  rw [emb3 t k]

theorem emb4 (t : Fin cfg0.N) (k : Fin 1024) :
    ((cfg0.win 4).blk t).view.emb (ix2 (0 : Fin 1) k : S1x1024.Idx) = (ix2 (0 : Fin 1) k : S1x1024.Idx) := by
  obtain ⟨-, -, -, -, e4, e5, e6, e7, e8, e9, -⟩ := idx_facts t
  funext a; apply Fin.ext
  match a with
  | ⟨0, _⟩ => show win0_4.index t (0 : Fin 2) * 1 + 1 * 0 = 0; omega
  | ⟨1, _⟩ => show win0_4.index t (1 : Fin 2) * 1024 + 1 * k.val = k.val; omega

theorem blk4_read (c : Dev nD) (t : Fin cfg0.N) (k : Fin 1024) :
    iblk m c 4 t (ix2 (0 : Fin 1) k : S1x1024.Idx) = V m c main_v4 (ix2 (0 : Fin 1) k) := by
  show V m c main_v4 (((cfg0.win 4).blk t).view.emb (ix2 (0 : Fin 1) k : S1x1024.Idx)) = _
  rw [emb4 t k]

theorem emb5 (t : Fin cfg0.N) (p q : Fin 1024) (R : Fin 32768) (hR : R.val = t.val * 1024 + p.val) :
    ((cfg0.win 5).blk t).view.emb (ix2 p q : S1024x1024.Idx) = (ix2 R q : S32768x1024.Idx) := by
  obtain ⟨-, -, -, -, -, -, -, -, -, -, e10, e11⟩ := idx_facts t
  funext a; apply Fin.ext
  match a with
  | ⟨0, _⟩ => show win0_5.index t (0 : Fin 2) * 1024 + 1 * p.val = R.val; omega
  | ⟨1, _⟩ => show win0_5.index t (1 : Fin 2) * 1024 + 1 * q.val = q.val; omega

/-! ## What each point writes back, the cover, the flattened result -/

/-- What point `t` writes back is block `t` of `G` of the region's arrays. -/
theorem flushed_eq (c : Dev nD) (t : Fin cfg0.N) :
    (dats m 0 c).flushed 5 t = ((cfg0.win 5).blk t).view.read (Elt Ideal) (G (V m c main_v0) (V m c main_v1) (V m c main_v2) (V m c main_v3) (V m c main_v4)) := by
  show (cfg0.win 5).cut (grid0.coords t) ((dats m 0 c).after 5 t) = _
  rw [after0_5]
  unfold outsAt0
  rw [out_eq]
  funext y
  obtain ⟨p, q, rfl⟩ : ∃ (p q : Fin 1024), y = ix2 p q := ⟨y 0, y 1, eq_ix2 y⟩
  have hN : cfg0.N = 32 := N_0
  have hR : t.val * 1024 + p.val < 32768 := by have := t.isLt; have := p.isLt; omega
  show bodyVal (iblk m c 0 t) (iblk m c 1 t) (iblk m c 2 t) (iblk m c 3 t) (iblk m c 4 t) (ix2 p q)
    = (G (V m c main_v0) (V m c main_v1) (V m c main_v2) (V m c main_v3) (V m c main_v4)) (((cfg0.win 5).blk t).view.emb (ix2 p q : S1024x1024.Idx))
  rw [bodyVal_apply, emb5 t p q ⟨t.val * 1024 + p.val, hR⟩ rfl, G_apply]
  have h0 : rowOf (iblk m c 0 t) p = fun k => V m c main_v0 (ix2 (⟨t.val * 1024 + p.val, hR⟩ : Fin 32768) k) :=
    funext fun k => blk0_read m c t p k ⟨t.val * 1024 + p.val, hR⟩ rfl
  have h1 : colOf (iblk m c 1 t) q = fun k => V m c main_v1 (ix2 k q) := funext fun k => blk1_read m c t k q
  have h3 : laneOf (iblk m c 3 t) = fun k => V m c main_v3 (ix2 (0 : Fin 1) k) := funext fun k => blk3_read m c t k
  have h4 : laneOf (iblk m c 4 t) = fun k => V m c main_v4 (ix2 (0 : Fin 1) k) := funext fun k => blk4_read m c t k
  rw [h0, h1, h3, h4, blk2_read m c t q]

/-- An index of the flattened result is in point `t`'s block iff each coordinate is in the block's range. -/
theorem mem_blk (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v5).slice (win0_5.rect t)).set ↔ _
  rw [View.set_slice_whole, Rect.mem_set_unit]
  exact Iff.rfl

/-- The flattened result after the run is `G` of the region's arrays: row `R` lies in the block of point `R / 1024`. -/
theorem final (c : Dev nD) : (dats m 0 c).arrAt 5 cfg0.N = (G (V m c main_v0) (V m c main_v1) (V m c main_v2) (V m c main_v3) (V m c main_v4)) :=
  (dats m 0 c).arrAt_eq_of_cover 5 (G (V m c main_v0) (V m c main_v1) (V m c main_v2) (V m c main_v3) (V m c main_v4)) (fun t _ => flushed_eq m c t) (fun i => by
    have hi0 : (i 0).val < 32768 := (i 0).isLt
    have hi1 : (i 1).val < 1024 := (i 1).isLt
    have hN : cfg0.N = 32 := N_0
    have ht : (i 0).val / 1024 < cfg0.N := by omega
    refine ⟨⟨(i 0).val / 1024, ht⟩, flush0_5 _, ?_⟩
    rw [mem_blk]
    obtain ⟨-, -, -, -, -, -, -, -, -, -, e10, e11⟩ := idx_facts ⟨(i 0).val / 1024, ht⟩
    intro a
    match a with
    | ⟨0, _⟩ =>
      show win0_5.index ⟨(i 0).val / 1024, ht⟩ (0 : Fin 2) * 1024 ≤ (i 0).val
        ∧ (i 0).val < win0_5.index ⟨(i 0).val / 1024, ht⟩ (0 : Fin 2) * 1024 + 1024
      have e : win0_5.index ⟨(i 0).val / 1024, ht⟩ (0 : Fin 2) = (i 0).val / 1024 := e10
      omega
    | ⟨1, _⟩ =>
      show win0_5.index ⟨(i 0).val / 1024, ht⟩ (1 : Fin 2) * 1024 ≤ (i 1).val
        ∧ (i 1).val < win0_5.index ⟨(i 0).val / 1024, ht⟩ (1 : Fin 2) * 1024 + 1024
      omega)

/-! ## The result of @main as a function of its arguments -/

/-- The kernel program's result from its five arguments. -/
def kout (a0 : S8x4096x1024.Idx → EReal) (a1 : S1024x1024.Idx → EReal) (a2 a3 a4 : S1024.Idx → EReal) :
    S8x4096x1024.Idx → EReal :=
  shapeCast S8x4096x1024
    (G (shapeCast S32768x1024 a0 shapeCasts_S8x4096x1024_S32768x1024) a1
      (shapeCast S1x1024 a2 shapeCasts_S1024_S1x1024) (shapeCast S1x1024 a3 shapeCasts_S1024_S1x1024)
      (shapeCast S1x1024 a4 shapeCasts_S1024_S1x1024))
    shapeCasts_S32768x1024_S8x4096x1024

/-- The last host line regroups the flattened result's rows into `[8, 4096]`. -/
theorem tail_eq (c : Dev nD) :
    (Pipeline.afterTail₀ cfgs (dats m) 0 (V0 m) [hostOps1] c main_v6 : S8x4096x1024.Idx → EReal)
      = kout (m ((c : Thread nD τ).loc main_arg0)) (m ((c : Thread nD τ).loc main_arg1))
          (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v5)
      = (G (V m c main_v0) (V m c main_v1) (V m c main_v2) (V m c main_v3) (V m c main_v4)) :=
    (Pipeline.withArrays_arr spec0 launch0.win.arr_inj c _ _ 5).trans (final m c)
  unfold Pipeline.afterTail₀
  show StableHlo.after hostOps1 _ (Proc.devRef .tc main_v6) = _
  after_results
  rw [e, V_v0, V_v1, V_v2, V_v3, V_v4]
  rfl

/-- Every weakly fair execution of the kernel program ends with its result at `kout` of the arguments, which are unchanged. -/
theorem run : θ_run defs (onTc (τ := τ) (main (F := Ideal))) ⟨m, fun _ => 0, ρ⟩ (fun r => ∀ c : Dev nD,
      r.2.mem ((c.tc : Thread nD τ).loc main_v6)
        = kout (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result at `(p, q, d)`: `rowKer` of row `(p, q)` of `x`, of `γ`, `β`, of column `d` of the weights and of bias entry `d`. -/
theorem kout_apply (a0 : S8x4096x1024.Idx → EReal) (a1 : S1024x1024.Idx → EReal) (a2 a3 a4 : S1024.Idx → EReal)
    (p : Fin 8) (q : Fin 4096) (d : Fin 1024) :
    kout a0 a1 a2 a3 a4 (ix3 p q d)
      = rowKer (fun k => a0 (ix3 p q k)) (fun k => a3 (ix1 k)) (fun k => a4 (ix1 k)) (fun k => a1 (ix2 k d)) (a2 (ix1 d)) := by
  have hR : p.val * 4096 + q.val < 32768 := by have := p.isLt; have := q.isLt; omega
  unfold kout
  rw [shapeCast_dc_abc_apply _ shapeCasts_S32768x1024_S8x4096x1024 p q d ⟨p.val * 4096 + q.val, hR⟩ rfl, G_apply]
  have h0 : (fun k : Fin 1024 => shapeCast S32768x1024 a0 shapeCasts_S8x4096x1024_S32768x1024
      (ix2 (⟨p.val * 4096 + q.val, hR⟩ : Fin 32768) k)) = fun k => a0 (ix3 p q k) :=
    funext fun k => shapeCast_abc_dc_apply a0 shapeCasts_S8x4096x1024_S32768x1024 ⟨p.val * 4096 + q.val, hR⟩ k p q rfl
  have h3 : (fun k : Fin 1024 => shapeCast S1x1024 a3 shapeCasts_S1024_S1x1024 (ix2 (0 : Fin 1) k)) = fun k => a3 (ix1 k) :=
    funext fun k => shapeCast_a_1a_apply a3 shapeCasts_S1024_S1x1024 0 k
  have h4 : (fun k : Fin 1024 => shapeCast S1x1024 a4 shapeCasts_S1024_S1x1024 (ix2 (0 : Fin 1) k)) = fun k => a4 (ix1 k) :=
    funext fun k => shapeCast_a_1a_apply a4 shapeCasts_S1024_S1x1024 0 k
  rw [h0, h3, h4, shapeCast_a_1a_apply a2 shapeCasts_S1024_S1x1024 0 d]

end Cert.KernelIdeal.Arr

end
-- ==== Proof.RefRow.lean ====
/-
  The reference's result read at `(p, q, d)`, on the extended reals.

  The reference normalises row `(p, q)` of `x` with the variance taken as the mean of the squared deviations from the
  mean, applies `γ` and `β`, contracts the 1024 entries with column `d` of the weights in one sum and adds the bias
  entry `d`: `rowRef` of that row.
-/
import proofs.«155396_j70824010711778_2_alg».proof.Proof.Gen.ReferenceIdeal.Read
import proofs.«155396_j70824010711778_2_alg».proof.Proof.RowStats
import Idealize.ShloMosaic.Lib.ValueIdx
import Idealize.ShloMosaic.PureOps.Ideal.Laws

set_option maxRecDepth 16384

noncomputable section

namespace Cert.ReferenceIdeal.RefRow

open Idealize.ShloMosaic Idealize.ShloMosaic.ValueIdx
open Cert.ReferenceIdeal Cert.ReferenceIdeal.Gen Cert.ReferenceIdeal.Read Cert.LnMatmul

variable (x0 : (⟨S8x4096x1024, .f32⟩ : BufTy).Contents (Elt Ideal)) (x1 : (⟨S1024x1024, .f32⟩ : BufTy).Contents (Elt Ideal)) (x2 x3 x4 : (⟨S1024, .f32⟩ : BufTy).Contents (Elt Ideal))
variable (p : Fin 8) (q : Fin 4096)

/-- Row `(p, q)` of `x`. -/
abbrev rowAt : Fin 1024 → EReal := fun k => x0 (ix3 p q k)

theorem idx4_eq (k : Fin 1024) : idx_main_v4 (ix3 p q k) = ix3 p q (0 : Fin 1) := funext fun a => Fin.ext (by
    match a with
    | ⟨0, _⟩ => rfl
    | ⟨1, _⟩ => rfl
    | ⟨2, _⟩ => rfl)
theorem idx14_eq (k : Fin 1024) : idx_main_v14 (ix3 p q k) = ix3 p q (0 : Fin 1) := funext fun a => Fin.ext (by
    match a with
    | ⟨0, _⟩ => rfl
    | ⟨1, _⟩ => rfl
    | ⟨2, _⟩ => rfl)
theorem idx16_eq (k : Fin 1024) : idx_main_v16 (ix3 p q k) = ix3 p q (0 : Fin 1) := funext fun a => Fin.ext (by
    match a with
    | ⟨0, _⟩ => rfl
    | ⟨1, _⟩ => rfl
    | ⟨2, _⟩ => rfl)

/-- The column of means at `(p, q)` is the mean of row `(p, q)`. -/
theorem mean_ref (u : Fin 1) : val_main_v3 (F := Ideal) x0 (ix3 p q u) = mean (rowAt x0 p q) := by
  rw [val_main_v3_apply, val_main_v1_apply, val_main_v0_apply, val_main_v2_apply, val_main_cst_0_apply, val_main_cst_apply]
  have e : ∀ k : Fin 1024, idx_main_v0 (idx_main_v1 (ix3 p q u)) k = ix3 p q k := fun k => funext fun a => Fin.ext (by
    match a with
    | ⟨0, _⟩ => rfl
    | ⟨1, _⟩ => rfl
    | ⟨2, _⟩ => rfl)
  simp only [e, Ideal.hostDivf_def, Ideal.ofBits_def, Ideal.ofBits_zero_f32, zero_add]
  rfl

/-- The column of variances at `(p, q)`: the mean of the squared deviations of row `(p, q)` from its mean. -/
theorem var_ref (u : Fin 1) : val_main_v10 (F := Ideal) x0 (ix3 p q u) = varCentered (rowAt x0 p q) := by
  rw [val_main_v10_apply, val_main_v8_apply, val_main_v7_apply, val_main_v9_apply, val_main_cst_2_apply, val_main_cst_1_apply]
  have e : ∀ k : Fin 1024, idx_main_v7 (idx_main_v8 (ix3 p q u)) k = ix3 p q k := fun k => funext fun a => Fin.ext (by
    match a with
    | ⟨0, _⟩ => rfl
    | ⟨1, _⟩ => rfl
    | ⟨2, _⟩ => rfl)
  simp only [e, val_main_v6_apply, val_main_v5_apply, val_main_v4_apply, idx4_eq, mean_ref, Ideal.hostDivf_def,
    Ideal.subf_def, Ideal.mulf_def, Ideal.ofBits_def, Ideal.ofBits_zero_f32, zero_add]
  rfl

/-- The column of normalising factors at `(p, q)`. -/
theorem rstd_ref (u : Fin 1) : val_main_v13 (F := Ideal) x0 (ix3 p q u) = rstd (varCentered (rowAt x0 p q)) := by
  rw [val_main_v13_apply, val_main_v12_apply, val_main_v11_apply, val_main_cst_3_apply, var_ref]
  simp only [Ideal.hostUnary_rsqrt_def, Ideal.addf_def, Ideal.ofBits_def]
  rfl

/-- Entry `k` of the normalised row `(p, q)`. -/
theorem ln_ref (k : Fin 1024) : val_main_v23 (F := Ideal) x0 x3 x4 (ix3 p q k)
    = normed (varCentered (rowAt x0 p q)) (rowAt x0 p q) (fun k => x3 (ix1 k)) (fun k => x4 (ix1 k)) k := by
  have e3 : idx_main_v18 (idx_main_v19 (ix3 p q k)) = ix1 k := funext fun a => Fin.ext (by
    match a with
    | ⟨0, _⟩ => rfl)
  have e4 : idx_main_v21 (idx_main_v22 (ix3 p q k)) = ix1 k := funext fun a => Fin.ext (by
    match a with
    | ⟨0, _⟩ => rfl)
  rw [val_main_v23_apply, val_main_v20_apply, val_main_v17_apply, val_main_v15_apply, val_main_v14_apply,
    val_main_v16_apply, val_main_v19_apply, val_main_v18_apply, val_main_v22_apply, val_main_v21_apply,
    idx14_eq, idx16_eq, mean_ref, rstd_ref, e3, e4]
  simp only [Ideal.addf_def, Ideal.mulf_def, Ideal.subf_def]
  rfl

/-- The reference's result at `(p, q, d)`. -/
theorem ref_apply (d : Fin 1024) : val_main_v27 (F := Ideal) x0 x1 x2 x3 x4 (ix3 p q d)
    = rowRef (rowAt x0 p q) (fun k => x3 (ix1 k)) (fun k => x4 (ix1 k)) (fun k => x1 (ix2 k d)) (x2 (ix1 d)) := by
  have el : ∀ k : Fin 1024, lidx_main_v24 (ix3 p q d) k = ix3 p q k := fun k => funext fun a => Fin.ext (by
    match a with
    | ⟨0, _⟩ => rfl
    | ⟨1, _⟩ => rfl
    | ⟨2, _⟩ => rfl)
  have er : ∀ k : Fin 1024, ridx_main_v24 (ix3 p q d) k = ix2 k d := fun k => funext fun a => Fin.ext (by
    match a with
    | ⟨0, _⟩ => rfl
    | ⟨1, _⟩ => rfl)
  have eb : idx_main_v25 (idx_main_v26 (ix3 p q d)) = ix1 d := funext fun a => Fin.ext (by
    match a with
    | ⟨0, _⟩ => rfl)
  rw [val_main_v27_apply, val_main_v24_apply, val_main_v26_apply, val_main_v25_apply, eb]
  simp only [el, er, ln_ref, Ideal.addf_def]
  rfl

end Cert.ReferenceIdeal.RefRow

end
-- ==== Proof.Bridge.lean ====
/-
  The two programs compute one function of their arguments, when every entry of `x` is a real number.

  At `(p, q, d)` the kernel program's result is `rowKer` and the reference's is `rowRef` of the same row `(p, q)` of
  `x`, the same `γ`, `β`, column `d` of the weights and bias entry `d`; the two agree on a row of real numbers.
-/
import proofs.«155396_j70824010711778_2_alg».proof.Proof.KernelArray
import proofs.«155396_j70824010711778_2_alg».proof.Proof.RefRow

noncomputable section

namespace Cert.Proof.Bridge

open Idealize.ShloMosaic Idealize.ShloMosaic.ValueIdx Cert.LnMatmul

theorem result_eq (a0 : (⟨3, ![8, 4096, 1024]⟩ : Shape).Idx → EReal) (a1 : (⟨2, ![1024, 1024]⟩ : Shape).Idx → EReal)
    (a2 a3 a4 : (⟨1, ![1024]⟩ : Shape).Idx → EReal) (hfin : ∀ i, ∃ r : ℝ, a0 i = (r : EReal)) :
    Cert.ReferenceIdeal.Read.val_main_v27 (F := Ideal) a0 a1 a2 a3 a4 = Cert.KernelIdeal.Arr.kout a0 a1 a2 a3 a4 := by
  funext i
  obtain ⟨p, q, d, rfl⟩ : ∃ (p : Fin 8) (q : Fin 4096) (d : Fin 1024), i = ix3 p q d := ⟨i 0, i 1, i 2, eq_ix3 i⟩
  rw [Cert.ReferenceIdeal.RefRow.ref_apply, Cert.KernelIdeal.Arr.kout_apply]
  exact (rowKer_eq_rowRef _ _ _ _ _ (fun k => hfin _)).symm

end Cert.Proof.Bridge

end
-- ==== Proof.Finite.lean ====
/-
  From the precondition to "every entry of `x` is a real number".

  The precondition is the conjunction, over the five arguments, of "every entry has absolute value below `+∞`". The
  first conjunct, read at an entry `x`, says `max x (-x) < +∞` on the extended reals, which excludes both infinities.
-/
import proofs.«155396_j70824010711778_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Idealize.ShloMosaic Cert.Pre_finite_inputs

instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- Under the precondition every entry of the first argument is a real number. -/
theorem x_real [Facts] (a0 : FVec Ideal S8x4096x1024 .f32) (a1 : FVec Ideal S1024x1024 .f32) (a2 a3 a4 : FVec Ideal S1024 .f32)
    (h : fn (F := Ideal) a0 a1 a2 a3 a4 = fun _ => 1#1) (i : S8x4096x1024.Idx) : ∃ r : ℝ, a0 i = (r : EReal) := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := Host.reduce_andi_all _ _ _ _ _ h4 i
  exact real_of_abs_lt (a0 i) h5

end Cert.Pre_finite_inputs.Finite

end
-- ==== Proof.lean ====
/-
  The five claims of this certificate.

  The kernel normalises each row of `x` (1024 entries) with the variance taken as the mean of the squares minus the
  square of the mean, multiplies the normalised rows by the weight matrix in four groups of 256 lanes accumulated in
  turn, and adds a bias row; the reference takes the variance as the mean of the squared deviations from the mean and
  contracts all 1024 lanes in one sum. On the extended reals the two results are equal entry by entry under the
  precondition that every entry of `x` is finite: the variance identity `(∑ (x - μ)²)/n = (∑ x²)/n - μ²` holds for
  real numbers, and regrouping the finite sum needs no hypothesis.

  The three frames: the two kernel programs' frames are the generated ones; the reference has no kernel and its
  frame is its run with the result dropped. No operation of the kernel was rewritten for the ideal reading, so
  there is nothing to preserve.
-/
import proofs.«155396_j70824010711778_2_alg».proof.Defs
import proofs.«155396_j70824010711778_2_alg».proof.Proof.Gen.Kernel
import proofs.«155396_j70824010711778_2_alg».proof.Proof.Gen.Kernel.Skeleton
import proofs.«155396_j70824010711778_2_alg».proof.Proof.Gen.Kernel.Launch
import proofs.«155396_j70824010711778_2_alg».proof.Proof.Gen.Kernel.Points
import proofs.«155396_j70824010711778_2_alg».proof.Proof.Gen.Kernel.Frame
import proofs.«155396_j70824010711778_2_alg».proof.Proof.Gen.KernelIdeal
import proofs.«155396_j70824010711778_2_alg».proof.Proof.Gen.KernelIdeal.Skeleton
import proofs.«155396_j70824010711778_2_alg».proof.Proof.Gen.KernelIdeal.Launch
import proofs.«155396_j70824010711778_2_alg».proof.Proof.Gen.KernelIdeal.Points
import proofs.«155396_j70824010711778_2_alg».proof.Proof.Gen.KernelIdeal.Frame
import proofs.«155396_j70824010711778_2_alg».proof.Proof.Gen.ReferenceIdeal
import proofs.«155396_j70824010711778_2_alg».proof.Proof.Gen.Pre_finite_inputs
import proofs.«155396_j70824010711778_2_alg».proof.Proof.Gen.ReferenceIdeal.Run
import proofs.«155396_j70824010711778_2_alg».proof.Proof.Gen.ReferenceIdeal.Read
import proofs.«155396_j70824010711778_2_alg».proof.Proof.Bridge
import proofs.«155396_j70824010711778_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the kernel program's function of the arguments:
    the kernel program by its run, the reference by its run and the equality of the two functions on a finite `x`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2]
  exact Cert.Proof.Bridge.result_eq _ _ _ _ _
    (fun i => Cert.Pre_finite_inputs.Finite.x_real _ _ _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
